-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x8x2048 : Shape := ⟨4, ![64, 32, 8, 2048]⟩
abbrev S64x32x2048 : Shape := ⟨3, ![64, 32, 2048]⟩
abbrev S64x2048 : Shape := ⟨2, ![64, 2048]⟩
abbrev S2048x64 : Shape := ⟨2, ![2048, 64]⟩
abbrev S_ : Shape := ⟨0, ![]⟩

class Facts : Prop where
  bcast_S_S64x32x8x2048 : S_.BroadcastsInDim S64x32x8x2048 (![] : Fin 0 → Fin S64x32x8x2048.rank)
  reducesTo_S64x32x8x2048_S_d0_1_2_3 : S64x32x8x2048.ReducesTo [0, 1, 2, 3] S_
  h_S_ : 0 < S_.numel
  bcast_S_S64x32x2048 : S_.BroadcastsInDim S64x32x2048 (![] : Fin 0 → Fin S64x32x2048.rank)
  reducesTo_S64x32x2048_S_d0_1_2 : S64x32x2048.ReducesTo [0, 1, 2] S_
  bcast_S_S64x2048 : S_.BroadcastsInDim S64x2048 (![] : Fin 0 → Fin S64x2048.rank)
  reducesTo_S64x2048_S_d0_1 : S64x2048.ReducesTo [0, 1] S_

variable [Facts]

def fn_part1 {F : FTy → Type} [FloatOps F] (main_arg4 : FVec F S64x2048 .f32) (main_v13 : IVec S_ 1) (main_v16 : IVec S64x32x2048 1) : IVec S_ 1 :=
  let main_c_5 : IVec S_ 1 := constantI S_ 1 1#1
  let main_v17 : IVec S_ 1 := (fun x v => Host.reduce IntOp.andi x v reducesTo_S64x32x2048_S_d0_1_2 h_S_) main_v16 main_c_5
  let main_v18 : IVec S_ 1 := andi main_v13 main_v17
  let main_v19 : FVec F S64x2048 .f32 := Host.absf main_arg4
  let main_cst_6 : FVec F S_ .f32 := constant S_ .f32 0x7F800000#32
  let main_v20 : FVec F S64x2048 .f32 := broadcastInDim S64x2048 ![] bcast_S_S64x2048 main_cst_6
  let main_v21 : IVec S64x2048 1 := cmpf .olt main_v19 main_v20
  let main_c_7 : IVec S_ 1 := constantI S_ 1 1#1
  let main_v22 : IVec S_ 1 := (fun x v => Host.reduce IntOp.andi x v reducesTo_S64x2048_S_d0_1 h_S_) main_v21 main_c_7
  let main_v23 : IVec S_ 1 := andi main_v18 main_v22
  main_v23

def fn {F : FTy → Type} [FloatOps F] (main_arg0 : FVec F S64x32x8x2048 .f32) (main_arg1 : FVec F S64x32x8x2048 .f32) (main_arg2 : FVec F S64x32x2048 .f32) (main_arg3 : FVec F S64x32x2048 .f32) (main_arg4 : FVec F S64x2048 .f32) (main_arg5 : IVec S2048x64 1) : IVec S_ 1 :=
  let main_v0 : FVec F S64x32x8x2048 .f32 := Host.absf main_arg0
  let main_cst : FVec F S_ .f32 := constant S_ .f32 0x7F800000#32
  let main_v1 : FVec F S64x32x8x2048 .f32 := broadcastInDim S64x32x8x2048 ![] bcast_S_S64x32x8x2048 main_cst
  let main_v2 : IVec S64x32x8x2048 1 := cmpf .olt main_v0 main_v1
  let main_c : IVec S_ 1 := constantI S_ 1 1#1
  let main_v3 : IVec S_ 1 := (fun x v => Host.reduce IntOp.andi x v reducesTo_S64x32x8x2048_S_d0_1_2_3 h_S_) main_v2 main_c
  let main_v4 : FVec F S64x32x8x2048 .f32 := Host.absf main_arg1
  let main_cst_0 : FVec F S_ .f32 := constant S_ .f32 0x7F800000#32
  let main_v5 : FVec F S64x32x8x2048 .f32 := broadcastInDim S64x32x8x2048 ![] bcast_S_S64x32x8x2048 main_cst_0
  let main_v6 : IVec S64x32x8x2048 1 := cmpf .olt main_v4 main_v5
  let main_c_1 : IVec S_ 1 := constantI S_ 1 1#1
  let main_v7 : IVec S_ 1 := (fun x v => Host.reduce IntOp.andi x v reducesTo_S64x32x8x2048_S_d0_1_2_3 h_S_) main_v6 main_c_1
  let main_v8 : IVec S_ 1 := andi main_v3 main_v7
  let main_v9 : FVec F S64x32x2048 .f32 := Host.absf main_arg2
  let main_cst_2 : FVec F S_ .f32 := constant S_ .f32 0x7F800000#32
  let main_v10 : FVec F S64x32x2048 .f32 := broadcastInDim S64x32x2048 ![] bcast_S_S64x32x2048 main_cst_2
  let main_v11 : IVec S64x32x2048 1 := cmpf .olt main_v9 main_v10
  let main_c_3 : IVec S_ 1 := constantI S_ 1 1#1
  let main_v12 : IVec S_ 1 := (fun x v => Host.reduce IntOp.andi x v reducesTo_S64x32x2048_S_d0_1_2 h_S_) main_v11 main_c_3
  let main_v13 : IVec S_ 1 := andi main_v8 main_v12
  let main_v14 : FVec F S64x32x2048 .f32 := Host.absf main_arg3
  let main_cst_4 : FVec F S_ .f32 := constant S_ .f32 0x7F800000#32
  let main_v15 : FVec F S64x32x2048 .f32 := broadcastInDim S64x32x2048 ![] bcast_S_S64x32x2048 main_cst_4
  let main_v16 : IVec S64x32x2048 1 := cmpf .olt main_v14 main_v15
  fn_part1 (F := F) main_arg4 main_v13 main_v16
-- ==== Kernel.lean ====
abbrev S64x32x8x2048 : Shape := ⟨4, ![64, 32, 8, 2048]⟩
abbrev S64x32x2048 : Shape := ⟨3, ![64, 32, 2048]⟩
abbrev S64x2048 : Shape := ⟨2, ![64, 2048]⟩
abbrev S2048x64 : Shape := ⟨2, ![2048, 64]⟩
abbrev S1x2048 : Shape := ⟨2, ![1, 2048]⟩
abbrev S8x32x8x512 : Shape := ⟨4, ![8, 32, 8, 512]⟩
abbrev S8x32x512 : Shape := ⟨3, ![8, 32, 512]⟩
abbrev S8x512 : Shape := ⟨2, ![8, 512]⟩
abbrev S1x512 : Shape := ⟨2, ![1, 512]⟩
abbrev S8x1x512 : Shape := ⟨3, ![8, 1, 512]⟩
abbrev S512 : Shape := ⟨1, ![512]⟩
abbrev S2048 : Shape := ⟨1, ![2048]⟩
abbrev S_ : Shape := ⟨0, ![]⟩

abbrev nBuf : Space → Nat
  | .hbm => 14
  | .vmem => 15
  | .smem => 0
  | _ => 0

abbrev bufTy : (tb : Table) → Fin (tcTables nBuf tb) → BufTy
  | .hbm, ⟨0, _⟩ => ⟨S64x32x8x2048, .f32⟩
  | .hbm, ⟨1, _⟩ => ⟨S64x32x8x2048, .f32⟩
  | .hbm, ⟨2, _⟩ => ⟨S64x32x2048, .f32⟩
  | .hbm, ⟨3, _⟩ => ⟨S64x32x2048, .f32⟩
  | .hbm, ⟨4, _⟩ => ⟨S64x2048, .f32⟩
  | .hbm, ⟨5, _⟩ => ⟨S2048x64, .i1⟩
  | .hbm, ⟨6, _⟩ => ⟨S64x2048, .i1⟩
  | .hbm, ⟨7, _⟩ => ⟨S64x2048, .f32⟩
  | .hbm, ⟨8, _⟩ => ⟨S1x2048, .f32⟩
  | .hbm, ⟨9, _⟩ => ⟨S2048, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S8x32x8x512, .f32⟩
  | .local _ .vmem, ⟨1, _⟩ => ⟨S8x32x8x512, .f32⟩
  | .local _ .vmem, ⟨2, _⟩ => ⟨S8x32x8x512, .f32⟩
  | .local _ .vmem, ⟨3, _⟩ => ⟨S8x32x8x512, .f32⟩
  | .local _ .vmem, ⟨4, _⟩ => ⟨S8x32x512, .f32⟩
  | .local _ .vmem, ⟨5, _⟩ => ⟨S8x32x512, .f32⟩
  | .local _ .vmem, ⟨6, _⟩ => ⟨S8x32x512, .f32⟩
  | .local _ .vmem, ⟨7, _⟩ => ⟨S8x32x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | _, _ => ⟨S64x32x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_28 : BitVec 32 := 0#32
  let v40 : BitVec 1 := Scalar.cmpi .ne v39 c0_i32_28
  v40

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x32x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  transposes_S2048x64_S64x2048_1_0 : S2048x64.Transposes [1, 0] S64x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S8x32x8x512_S8x32x8x512_0_0_0_0 : ∀ a, (![0, 0, 0, 0] : Fin 4 → Nat) a + S8x32x8x512.size a ≤ S8x32x8x512.size a
  h_S8x32x8x512 : 0 < S8x32x8x512.numel
  reduces_S8x32x8x512_S8x32x512 : S8x32x8x512.Reduces [2] S8x32x512
  inb_S8x512_S8x512_0_0 : ∀ a, (![0, 0] : Fin 2 → Nat) a + S8x512.size a ≤ S8x512.size a
  h_S8x512 : 0 < S8x512.numel
  shapeCasts_S8x512_S8x512 : S8x512.ShapeCasts S8x512
  shapeCasts_S8x512_S8x1x512 : S8x512.ShapeCasts S8x1x512
  inb_S8x32x512_S8x32x512_0_0_0 : ∀ a, (![0, 0, 0] : Fin 3 → Nat) a + S8x32x512.size a ≤ S8x32x512.size a
  h_S8x32x512 : 0 < S8x32x512.numel
  broadcasts_S8x1x512_S8x32x512 : S8x1x512.Broadcasts S8x32x512
  reduces_S8x32x512_S8x512 : S8x32x512.Reduces [1] S8x512
  reduces_S8x512_S512 : S8x512.Reduces [0] S512
  shapeCasts_S512_S1x512 : S512.ShapeCasts S1x512
  shapeCasts_S1x2048_S2048 : S1x2048.ShapeCasts S2048
  reducesTo_S2048_S_d0 : S2048.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x8x512.size a ≤ S64x32x8x2048.size a
  hwx0_0 : ∀ i : grid0.Coords, EltTy.bits .f32 = 32 ∨ (Rect.block (s := S64x32x8x2048) S8x32x8x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32x8x512.size a ≤ S64x32x8x2048.size a
  hwx0_1 : ∀ i : grid0.Coords, EltTy.bits .f32 = 32 ∨ (Rect.block (s := S64x32x8x2048) S8x32x8x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x32x512.size a ≤ S64x32x2048.size a
  hwx0_2 : ∀ i : grid0.Coords, EltTy.bits .f32 = 32 ∨ (Rect.block (s := S64x32x2048) S8x32x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x32x512.size a ≤ S64x32x2048.size a
  hwx0_3 : ∀ i : grid0.Coords, EltTy.bits .f32 = 32 ∨ (Rect.block (s := S64x32x2048) S8x32x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x512.size a ≤ S64x2048.size a
  hwx0_4 : ∀ i : grid0.Coords, EltTy.bits .f32 = 32 ∨ (Rect.block (s := S64x2048) S8x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x512.size a ≤ S64x2048.size a
  hwx0_5 : ∀ i : grid0.Coords, EltTy.bits .f32 = 32 ∨ (Rect.block (s := S64x2048) S8x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x2048.size a
  hwx0_6 : ∀ i : grid0.Coords, EltTy.bits .f32 = 32 ∨ (Rect.block (s := S1x2048) S1x512.size (cc0_transform_6 i) (hinb0_6 i)).WholeWords (EltTy.packing .f32)

variable [Facts₀]

abbrev win0_0 : Pipeline.Window sig grid0 :=
  Pipeline.Window.ofSpec (Memref.whole main_arg0) S8x32x8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x32x8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x32x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x32x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S8x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S64x32x8x2048 : Shape := ⟨4, ![64, 32, 8, 2048]⟩
abbrev S64x32x2048 : Shape := ⟨3, ![64, 32, 2048]⟩
abbrev S64x2048 : Shape := ⟨2, ![64, 2048]⟩
abbrev S2048x64 : Shape := ⟨2, ![2048, 64]⟩
abbrev S_ : Shape := ⟨0, ![]⟩
abbrev S64x1x2048 : Shape := ⟨3, ![64, 1, 2048]⟩
abbrev S2048 : Shape := ⟨1, ![2048]⟩

abbrev nBuf : Space → Nat
  | .hbm => 41
  | .vmem => 0
  | .smem => 0
  | _ => 0

abbrev bufTy : (tb : Table) → Fin (tcTables nBuf tb) → BufTy
  | .hbm, ⟨0, _⟩ => ⟨S64x32x8x2048, .f32⟩
  | .hbm, ⟨1, _⟩ => ⟨S64x32x8x2048, .f32⟩
  | .hbm, ⟨2, _⟩ => ⟨S64x32x2048, .f32⟩
  | .hbm, ⟨3, _⟩ => ⟨S64x32x2048, .f32⟩
  | .hbm, ⟨4, _⟩ => ⟨S64x2048, .f32⟩
  | .hbm, ⟨5, _⟩ => ⟨S2048x64, .i1⟩
  | .hbm, ⟨6, _⟩ => ⟨S64x2048, .i1⟩
  | .hbm, ⟨7, _⟩ => ⟨S64x2048, .f32⟩
  | .hbm, ⟨8, _⟩ => ⟨S_, .f32⟩
  | .hbm, ⟨9, _⟩ => ⟨S64x2048, .f32⟩
  | .hbm, ⟨10, _⟩ => ⟨S64x2048, .f32⟩
  | .hbm, ⟨11, _⟩ => ⟨S_, .f32⟩
  | .hbm, ⟨12, _⟩ => ⟨S64x32x2048, .f32⟩
  | .hbm, ⟨13, _⟩ => ⟨S_, .f32⟩
  | .hbm, ⟨14, _⟩ => ⟨S64x32x2048, .f32⟩
  | .hbm, ⟨15, _⟩ => ⟨S64x1x2048, .f32⟩
  | .hbm, ⟨16, _⟩ => ⟨S_, .f32⟩
  | .hbm, ⟨17, _⟩ => ⟨S64x2048, .f32⟩
  | .hbm, ⟨18, _⟩ => ⟨S64x2048, .f32⟩
  | .hbm, ⟨19, _⟩ => ⟨S64x1x2048, .f32⟩
  | .hbm, ⟨20, _⟩ => ⟨S64x1x2048, .f32⟩
  | .hbm, ⟨21, _⟩ => ⟨S64x32x2048, .f32⟩
  | .hbm, ⟨22, _⟩ => ⟨S64x32x2048, .f32⟩
  | .hbm, ⟨23, _⟩ => ⟨S64x32x2048, .f32⟩
  | .hbm, ⟨24, _⟩ => ⟨S64x1x2048, .f32⟩
  | .hbm, ⟨25, _⟩ => ⟨S64x1x2048, .f32⟩
  | .hbm, ⟨26, _⟩ => ⟨S64x1x2048, .f32⟩
  | .hbm, ⟨27, _⟩ => ⟨S64x32x2048, .f32⟩
  | .hbm, ⟨28, _⟩ => ⟨S64x32x2048, .f32⟩
  | .hbm, ⟨29, _⟩ => ⟨S64x32x2048, .f32⟩
  | .hbm, ⟨30, _⟩ => ⟨S_, .f32⟩
  | .hbm, ⟨31, _⟩ => ⟨S64x2048, .f32⟩
  | .hbm, ⟨32, _⟩ => ⟨S_, .f32⟩
  | .hbm, ⟨33, _⟩ => ⟨S64x2048, .f32⟩
  | .hbm, ⟨34, _⟩ => ⟨S64x2048, .f32⟩
  | .hbm, ⟨35, _⟩ => ⟨S_, .f32⟩
  | .hbm, ⟨36, _⟩ => ⟨S2048, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S64x32x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩

abbrev nD : Nat := 1
abbrev τ : Topo := Topo.v7x

variable {F : FTy → Type} [FloatOps F]

class Facts₀ : Prop where
  transposes_S2048x64_S64x2048_1_0 : S2048x64.Transposes [1, 0] S64x2048
  bcast_S_S64x2048 : S_.BroadcastsInDim S64x2048 (![] : Fin 0 → Fin S64x2048.rank)
  reducesTo_S64x32x8x2048_S64x32x2048_d2 : S64x32x8x2048.ReducesTo [2] S64x32x2048
  h_S_ : 0 < S_.numel
  bcast_S64x2048_S64x1x2048_0_2 : S64x2048.BroadcastsInDim S64x1x2048 (![0, 2] : Fin 2 → Fin S64x1x2048.rank)
  bcast_S64x1x2048_S64x32x2048_0_1_2 : S64x1x2048.BroadcastsInDim S64x32x2048 (![0, 1, 2] : Fin 3 → Fin S64x32x2048.rank)
  reducesTo_S64x32x2048_S64x2048_d1 : S64x32x2048.ReducesTo [1] S64x2048
  reducesTo_S64x2048_S2048_d0 : S64x2048.ReducesTo [0] S2048
  reducesTo_S2048_S_d0 : S2048.ReducesTo [0] S_

variable [Facts₀]

class Facts : Prop extends Facts₀ where

variable [Facts]
-- ==== Proof.Pieces.lean ====
/-
  What one run of the kernel body leaves behind, as values.

  The body adds to a running row `acc` (1 × 512) the column sums of an 8 × 512 tile `P` computed from the six
  input blocks: `acc ← acc + colsum P`. At the first town tile of a batch tile the row is first set to zero
  (so it ends at `0 + colsum P`); at the last town tile the row is also copied to the output block. Here the
  three cases' stored pieces are read back: each is the one whole-buffer store of `acc + colsum P` (the
  generated `k0_pay1` of the tile `k0_pay3` and the row), the row being the zero splat in the first case.
  The blocks enter in the order the body loads them: window 0 and 1 (the two 4-D arrays), then window 5
  ("belongs") before window 4 ("containment"), then windows 2 and 3 (the two frame distances).
-/
import proofs.«146046_j16484084483043_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- First town tile: the running row is reset, so it ends at `0 + colsum P`. -/
theorem row_first (c : Dev nD) (i : grid0.Coords) (arg2 : Memref sig .tc .vmem S8x32x8x512 .f32) (harg2 : arg2.IsWhole) (arg3 : Memref sig .tc .vmem S8x32x8x512 .f32) (harg3 : arg3.IsWhole) (arg4 : Memref sig .tc .vmem S8x32x512 .f32) (harg4 : arg4.IsWhole) (arg5 : Memref sig .tc .vmem S8x32x512 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S1x512 .f32) (harg8 : arg8.IsWhole) (arg9 : Memref sig .tc .vmem S1x512 .f32) (harg9 : arg9.IsWhole) (hc0 : cond0_0 i) (hc1 : ¬cond0_1 i) (x0 : Vec F S8x32x8x512 .f32) (x1 : Vec F S8x32x8x512 .f32) (x2 : Vec F S8x32x512 .f32) (x3 : Vec F S8x32x512 .f32) (x4 : Vec F S8x512 .f32) (x5 : Vec F S8x512 .f32) :
    sout0_A_0 c i arg2 harg2 arg3 harg3 arg4 harg4 arg5 harg5 arg6 harg6 arg7 harg7 arg8 harg8 arg9 harg9 hc0 hc1 x0 x1 x2 x3 x4 x5 = k0_pay1 (k0_pay3 x0 x1 x5 x4 x2 x3) k0_pay2 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S1x512) hz, View.readCov_unit_zero (S := S1x512) _ hz]
  simp only [View.readAt_eq_ld, harg2.read_unread, harg3.read_unread, harg4.read_unread, harg5.read_unread,
    harg6.read_unread, harg7.read_unread, harg9.read_unread, View.ld_unit_zero (S := S1x512) hz,
    View.ld_unit_zero (S := S8x512) hz, View.ld_unit_zero (S := S8x32x512) hz3, View.ld_unit_zero (S := S8x32x8x512) hz4]

/-- A middle town tile: the running row `xs0` ends at `xs0 + colsum P`. -/
theorem row_middle (c : Dev nD) (i : grid0.Coords) (arg2 : Memref sig .tc .vmem S8x32x8x512 .f32) (harg2 : arg2.IsWhole) (arg3 : Memref sig .tc .vmem S8x32x8x512 .f32) (harg3 : arg3.IsWhole) (arg4 : Memref sig .tc .vmem S8x32x512 .f32) (harg4 : arg4.IsWhole) (arg5 : Memref sig .tc .vmem S8x32x512 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S1x512 .f32) (harg8 : arg8.IsWhole) (arg9 : Memref sig .tc .vmem S1x512 .f32) (harg9 : arg9.IsWhole) (hc0 : ¬cond0_0 i) (hc1 : ¬cond0_1 i) (x0 : Vec F S8x32x8x512 .f32) (x1 : Vec F S8x32x8x512 .f32) (x2 : Vec F S8x32x512 .f32) (x3 : Vec F S8x32x512 .f32) (x4 : Vec F S8x512 .f32) (x5 : Vec F S8x512 .f32) (xs0 : Vec F S1x512 .f32) :
    sout0_B_0 c i arg2 harg2 arg3 harg3 arg4 harg4 arg5 harg5 arg6 harg6 arg7 harg7 arg8 harg8 arg9 harg9 hc0 hc1 x0 x1 x2 x3 x4 x5 xs0 = k0_pay1 (k0_pay3 x0 x1 x5 x4 x2 x3) xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero hz]
  simp only [View.readAt_eq_ld, harg2.read_unread, harg3.read_unread, harg4.read_unread, harg5.read_unread,
    harg6.read_unread, harg7.read_unread, harg9.read_unread, View.ld_unit_zero (S := S1x512) hz,
    View.ld_unit_zero (S := S8x512) hz, View.ld_unit_zero (S := S8x32x512) hz3, View.ld_unit_zero (S := S8x32x8x512) hz4]

/-- Last town tile: the running row likewise ends at `xs0 + colsum P`, -/
theorem row_last (c : Dev nD) (i : grid0.Coords) (arg2 : Memref sig .tc .vmem S8x32x8x512 .f32) (harg2 : arg2.IsWhole) (arg3 : Memref sig .tc .vmem S8x32x8x512 .f32) (harg3 : arg3.IsWhole) (arg4 : Memref sig .tc .vmem S8x32x512 .f32) (harg4 : arg4.IsWhole) (arg5 : Memref sig .tc .vmem S8x32x512 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S1x512 .f32) (harg8 : arg8.IsWhole) (arg9 : Memref sig .tc .vmem S1x512 .f32) (harg9 : arg9.IsWhole) (hc0 : ¬cond0_0 i) (hc1 : cond0_1 i) (x0 : Vec F S8x32x8x512 .f32) (x1 : Vec F S8x32x8x512 .f32) (x2 : Vec F S8x32x512 .f32) (x3 : Vec F S8x32x512 .f32) (x4 : Vec F S8x512 .f32) (x5 : Vec F S8x512 .f32) (xs0 : Vec F S1x512 .f32) :
    sout0_C_0 c i arg2 harg2 arg3 harg3 arg4 harg4 arg5 harg5 arg6 harg6 arg7 harg7 arg8 harg8 arg9 harg9 hc0 hc1 x0 x1 x2 x3 x4 x5 xs0 = k0_pay1 (k0_pay3 x0 x1 x5 x4 x2 x3) xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz]
  simp only [View.readAt_eq_ld, harg2.read_unread, harg3.read_unread, harg4.read_unread, harg5.read_unread,
    harg6.read_unread, harg7.read_unread, harg9.read_unread, View.ld_unit_zero (S := S1x512) hz,
    View.ld_unit_zero (S := S8x512) hz, View.ld_unit_zero (S := S8x32x512) hz3, View.ld_unit_zero (S := S8x32x8x512) hz4]

/-- and the output block is that row, read back after it was stored. -/
theorem out_last (c : Dev nD) (i : grid0.Coords) (arg2 : Memref sig .tc .vmem S8x32x8x512 .f32) (harg2 : arg2.IsWhole) (arg3 : Memref sig .tc .vmem S8x32x8x512 .f32) (harg3 : arg3.IsWhole) (arg4 : Memref sig .tc .vmem S8x32x512 .f32) (harg4 : arg4.IsWhole) (arg5 : Memref sig .tc .vmem S8x32x512 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S1x512 .f32) (harg8 : arg8.IsWhole) (arg9 : Memref sig .tc .vmem S1x512 .f32) (harg9 : arg9.IsWhole) (hc0 : ¬cond0_0 i) (hc1 : cond0_1 i) (x0 : Vec F S8x32x8x512 .f32) (x1 : Vec F S8x32x8x512 .f32) (x2 : Vec F S8x32x512 .f32) (x3 : Vec F S8x32x512 .f32) (x4 : Vec F S8x512 .f32) (x5 : Vec F S8x512 .f32) (xs0 : Vec F S1x512 .f32) :
    out0_C_6 c i arg2 harg2 arg3 harg3 arg4 harg4 arg5 harg5 arg6 harg6 arg7 harg7 arg8 harg8 arg9 harg9 hc0 hc1 x0 x1 x2 x3 x4 x5 xs0 = k0_pay1 (k0_pay3 x0 x1 x5 x4 x2 x3) xs0 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz, View.readCov_unit_zero (S := S1x512) _ hz]
  simp only [View.readAt_eq_ld, harg2.read_unread, harg3.read_unread, harg4.read_unread, harg5.read_unread,
    harg6.read_unread, harg7.read_unread, harg9.read_unread, View.ld_unit_zero (S := S1x512) hz,
    View.ld_unit_zero (S := S8x512) hz, View.ld_unit_zero (S := S8x32x512) hz3, View.ld_unit_zero (S := S8x32x8x512) hz4]

end Cert.KernelIdeal.Pieces

end
-- ==== Proof.LibRangeSums.lean ====
/-
  Finite sums over ranges of naturals, in any additive commutative monoid.

  A function of an index below N is extended by zero to every natural (`extRow`), so that positions inside blocks can be
  named by arithmetic on naturals; a range sum of length a·b splits into a blocks of length b (`sum_range_mul`); a sum
  over `Fin b` of a function of the underlying natural is the range sum (`sum_fin_nat`). Nothing here mentions a
  program: the lemmas serve any proof that regroups a long sum into tiles.
-/
import Mathlib

noncomputable section

namespace Cert.SumLaws

open Finset

variable {M : Type*} [AddCommMonoid M]

/-- A function of an index below `N`, extended by zero to every natural. -/
def extRow {N : ℕ} (f : Fin N → M) (n : ℕ) : M := if h : n < N then f ⟨n, h⟩ else 0

/-- Below `N` the extension is the function. -/
theorem extRow_of_lt {N : ℕ} (f : Fin N → M) (n : ℕ) (h : n < N) : extRow f n = f ⟨n, h⟩ := dif_pos h

/-- Summed over the first `N` naturals the extension is the sum over the indices. -/
theorem sum_range_extRow {N : ℕ} (f : Fin N → M) : ∑ n ∈ range N, extRow f n = ∑ n : Fin N, f n := by
  rw [Finset.sum_fin_eq_sum_range]
  rfl

/-- A range sum of length `a * b`, block by block: block `p` holds the positions `p * b + q`, `q < b`. -/
theorem sum_range_mul (a b : ℕ) (f : ℕ → M) :
    ∑ n ∈ range (a * b), f n = ∑ p ∈ range a, ∑ q ∈ range b, f (p * b + q) := by
  induction a with
  | zero => simp
  | succ a ih =>
    rw [Nat.succ_mul, Finset.sum_range_add, ih, Finset.sum_range_succ]

/-- A sum over `Fin b` of a function of the underlying natural is the range sum. -/
theorem sum_fin_nat (b : ℕ) (f : ℕ → M) : ∑ q : Fin b, f q.val = ∑ q ∈ range b, f q :=
  Fin.sum_univ_eq_sum_range f b

end Cert.SumLaws

end
-- ==== Proof.Spec.lean ====
/-
  The quantity both programs compute, written once over arrays of any extents.

  For towns `t < T`, houses `h < H`, windows `w < W` and batch columns `b < B`:

    town t b = min over h of  bel(t,b) · (1 − cont(t,b)) · (ofd(t,h,b) + Σ_w iw(t,h,w,b))
             + max over h of  (1 − bel(t,b)) · cont(t,b) · (ifd(t,h,b) + Σ_w ow(t,h,w,b)),

  the minimum taken from +∞ and the maximum from −∞ (as folds over the houses), and

    loss b = Σ_t town t b.

  Because the extents are parameters, the same definition reads a whole array (T = 64, B = 2048) and one
  block of it (T = 8, B = 512). Sums on the extended reals are commutative and associative, so a sum over
  64 towns may be taken as 8 consecutive groups of 8 (`sum_groups`).
-/
import Idealize.ShloMosaic.PureOps.Ideal
import Idealize.ShloMosaic.Lib.ValueIdx
import proofs.«146046_j16484084483043_2_alg».proof.Proof.LibRangeSums

noncomputable section

open scoped BigOperators

namespace Cert.Spec

open Idealize.ShloMosaic Idealize.ShloMosaic.ValueIdx

/-- The f32 word of 1.0 at the ideal values. -/
abbrev one : EReal := Ideal.ofBits .f32 0x3F800000#32
/-- The f32 word of +∞ at the ideal values. -/
abbrev posInf : EReal := Ideal.ofBits .f32 0x7F800000#32
/-- The f32 word of −∞ at the ideal values. -/
abbrev negInf : EReal := Ideal.ofBits .f32 0xFF800000#32

variable {T H W B : ℕ}

/-- One town's term at one batch column: the least "belongs" cost over the houses plus the greatest
    "does not belong" cost over the houses. -/
def town (iw ow : (⟨4, ![T, H, W, B]⟩ : Shape).Idx → EReal) (ofd ifd : (⟨3, ![T, H, B]⟩ : Shape).Idx → EReal)
    (cont bel : (⟨2, ![T, B]⟩ : Shape).Idx → EReal) (t : Fin T) (b : Fin B) : EReal :=
  (Finset.univ : Finset (Fin H)).fold min posInf
      (fun h => bel (ix2 t b) * (one - cont (ix2 t b)) * (ofd (ix3 t h b) + ∑ w : Fin W, iw (ix4 t h w b)))
  + (Finset.univ : Finset (Fin H)).fold max negInf
      (fun h => (one - bel (ix2 t b)) * cont (ix2 t b) * (ifd (ix3 t h b) + ∑ w : Fin W, ow (ix4 t h w b)))

/-- The loss of one batch column: the towns' terms added up. -/
def loss (iw ow : (⟨4, ![T, H, W, B]⟩ : Shape).Idx → EReal) (ofd ifd : (⟨3, ![T, H, B]⟩ : Shape).Idx → EReal)
    (cont bel : (⟨2, ![T, B]⟩ : Shape).Idx → EReal) (b : Fin B) : EReal :=
  ∑ t : Fin T, town iw ow ofd ifd cont bel t b

/-- A sum over `a * n` indices is the sum over `a` consecutive groups of `n`. -/
theorem sum_groups {M : Type*} [AddCommMonoid M] (a n : ℕ) (f : ℕ → M) :
    ∑ t : Fin (a * n), f t.val = ∑ p ∈ Finset.range a, ∑ r : Fin n, f (p * n + r.val) := by
  rw [Cert.SumLaws.sum_fin_nat (a * n) f, Cert.SumLaws.sum_range_mul]
  exact Finset.sum_congr rfl fun p _ => (Cert.SumLaws.sum_fin_nat n fun q => f (p * n + q)).symm

end Cert.Spec

end
-- ==== Proof.LibAxis.lean ====
/-
  One-axis reductions and two layout operations of small-rank vectors, read at coordinates, at the ideal values.

  * A `vector.multi_reduction <add>` over axis 2 of a rank-4 vector, over axis 0 of a rank-2 vector: the sum over
    that axis's coordinate. A `<minimumf>` / `<maximumf>` over axis 1 of a rank-3 vector: the fold of `min` / `max`
    from the accumulator's value over that axis's coordinate.
  * A `vector.shape_cast` [a, b] → [a, 1, b] (a middle unit axis inserted) read at (i, 0, j) is the operand at (i, j);
    a `vector.broadcast` [a, 1, b] → [a, n, b] read at (i, k, j) is the operand at (i, 0, j).
  Every index is built from coordinates of literal `Fin` types, so the lemmas fire on goals written the same way.
-/
import Idealize.ShloMosaic.PureOps.Ideal.Laws
import Idealize.ShloMosaic.Lib.ValueIdx
import Idealize.ShloMosaic.Lib.Pipeline.Value

noncomputable section

open scoped BigOperators

namespace Cert.LibAxis

open Idealize.ShloMosaic Idealize.ShloMosaic.ValueIdx

variable {φ : FTy}

/-- Summing a rank-4 vector over axis 2: at (i, j, l) the sum over `k` of the entries (i, j, k, l). -/
theorem sum_axis2_of4 {a b c d : ℕ} (x : FVec Ideal ⟨4, ![a, b, c, d]⟩ φ) (acc : BitVec φ.bits)
    (h : (⟨4, ![a, b, c, d]⟩ : Shape).Reduces [2] ⟨3, ![a, b, d]⟩) (hφ : FKind.Formats φ)
    (hacc : acc = FKind.add.neutral φ hφ) (i : Fin a) (j : Fin b) (l : Fin d) :
    multiReduction .add [2] ⟨3, ![a, b, d]⟩ x acc h hφ hacc (ix3 i j l) = ∑ k : Fin c, x (ix4 i j k l) := by
  refine (Ideal.multiReduction_add_single x acc h hφ hacc (ix3 i j l)).trans ?_
  refine Finset.sum_congr rfl fun k _ => ?_
  exact congrArg x (funext fun e => Fin.ext (by
    match e with | ⟨0, _⟩ => rfl | ⟨1, _⟩ => rfl | ⟨2, _⟩ => rfl | ⟨3, _⟩ => rfl))

/-- Summing a rank-2 vector over axis 0: at `j` the sum over `k` of the entries (k, j). -/
theorem sum_axis0_of2 {a b : ℕ} (x : FVec Ideal ⟨2, ![a, b]⟩ φ) (acc : BitVec φ.bits)
    (h : (⟨2, ![a, b]⟩ : Shape).Reduces [0] ⟨1, ![b]⟩) (hφ : FKind.Formats φ)
    (hacc : acc = FKind.add.neutral φ hφ) (j : Fin b) :
    multiReduction .add [0] ⟨1, ![b]⟩ x acc h hφ hacc (ix1 j) = ∑ k : Fin a, x (ix2 k j) := by
  refine (Ideal.multiReduction_add_single x acc h hφ hacc (ix1 j)).trans ?_
  refine Finset.sum_congr rfl fun k _ => ?_
  exact congrArg x (funext fun e => Fin.ext (by match e with | ⟨0, _⟩ => rfl | ⟨1, _⟩ => rfl))

/-- The index (i, j) of a rank-2 shape with the coordinate `k` put back at axis 1 is (i, k, j). -/
theorem lift_axis1_of3 {a n b : ℕ} (h : (⟨3, ![a, n, b]⟩ : Shape).Reduces [1] ⟨2, ![a, b]⟩) (i : Fin a) (j : Fin b)
    (k : Fin n) : h.lift (ix2 i j) k = ix3 i k j :=
  funext fun e => Fin.ext (by match e with | ⟨0, _⟩ => rfl | ⟨1, _⟩ => rfl | ⟨2, _⟩ => rfl)

/-- The least entry along axis 1 of a rank-3 vector, from the accumulator's value. -/
theorem min_axis1_of3 {a n b : ℕ} (x : FVec Ideal ⟨3, ![a, n, b]⟩ φ) (acc : BitVec φ.bits)
    (h : (⟨3, ![a, n, b]⟩ : Shape).Reduces [1] ⟨2, ![a, b]⟩) (hφ : FKind.Formats φ)
    (hacc : acc = FKind.minimumf.neutral φ hφ) (i : Fin a) (j : Fin b) :
    multiReduction .minimumf [1] ⟨2, ![a, b]⟩ x acc h hφ hacc (ix2 i j)
      = (Finset.univ : Finset (Fin n)).fold min (Ideal.ofBits φ acc) (fun k => x (ix3 i k j)) := by
  rw [multiReduction_minimumf_eq_fold]
  refine (h.fold_filter_drop_single _ _ x (ix2 i j)).trans ?_
  exact Finset.fold_congr fun k _ => congrArg x (lift_axis1_of3 h i j k)

/-- The greatest entry along axis 1 of a rank-3 vector, from the accumulator's value. -/
theorem max_axis1_of3 {a n b : ℕ} (x : FVec Ideal ⟨3, ![a, n, b]⟩ φ) (acc : BitVec φ.bits)
    (h : (⟨3, ![a, n, b]⟩ : Shape).Reduces [1] ⟨2, ![a, b]⟩) (hφ : FKind.Formats φ)
    (hacc : acc = FKind.maximumf.neutral φ hφ) (i : Fin a) (j : Fin b) :
    multiReduction .maximumf [1] ⟨2, ![a, b]⟩ x acc h hφ hacc (ix2 i j)
      = (Finset.univ : Finset (Fin n)).fold max (Ideal.ofBits φ acc) (fun k => x (ix3 i k j)) := by
  refine (Ideal.multiReduction_maximumf_single x acc h hφ hacc (ix2 i j)).trans ?_
  exact Finset.fold_congr fun k _ => congrArg x (lift_axis1_of3 h i j k)

variable {α : Type}

/-- [a, b] → [a, 1, b]: the entry (i, 0, j) of the cast is the entry (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- [a, 1, b] → [a, n, b]: the entry (i, k, j) of the broadcast is the entry (i, 0, j). -/
theorem broadcastTo_a1b_anb_apply {a n b : ℕ} (v : (⟨3, ![a, 1, b]⟩ : Shape).Idx → α)
    (h : (⟨3, ![a, 1, b]⟩ : Shape).Broadcasts ⟨3, ![a, n, b]⟩) (i : Fin a) (k : Fin n) (j : Fin b) :
    broadcastTo ⟨3, ![a, n, b]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · omega
    · rfl
  | ⟨1, _⟩ => show 0 = if (1 : ℕ) = 1 then 0 else k.val; rw [if_pos rfl]
  | ⟨2, _⟩ =>
    show j.val = if b = 1 then 0 else j.val
    split
    · omega
    · rfl

end Cert.LibAxis

end
-- ==== Proof.Tile.lean ====
/-
  The body's arithmetic on one block, index by index, at the ideal values.

  From the six blocks of one grid point — two of shape [8, 32, 8, 512] (town, house, window, column), two of
  shape [8, 32, 512] and two of shape [8, 512] — the body forms the 8 × 512 tile whose entry (r, l) is town r's
  term at column l (`Cert.Spec.town` of the blocks): the window sums, the two masks `bel·(1 − cont)` and
  `(1 − bel)·cont` broadcast along the houses, the products, the least and the greatest over the houses, their
  sum. It then adds the tile's column sums to the running row.
-/
import proofs.«146046_j16484084483043_2_alg».proof.Proof.Gen.KernelIdeal.Skeleton
import proofs.«146046_j16484084483043_2_alg».proof.Proof.Spec
import proofs.«146046_j16484084483043_2_alg».proof.Proof.LibAxis
import Idealize.ShloMosaic.Lib.ValueLayout

noncomputable section

open scoped BigOperators

namespace Cert.KernelIdeal.Tile

open Cert.KernelIdeal Cert.KernelIdeal.Gen Idealize.ShloMosaic Idealize.ShloMosaic.ValueIdx

/-- The least over the houses, at (r, l). -/
theorem min_houses (v : FVec Ideal S8x32x512 .f32) (r : Fin 8) (l : Fin 512) :
    multiReduction .minimumf [1] S8x512 v 0x7F800000#32 reduces_S8x32x512_S8x512 (.inl rfl) rfl (ix2 r l)
      = (Finset.univ : Finset (Fin 32)).fold min Cert.Spec.posInf (fun h => v (ix3 r h l)) :=
  Cert.LibAxis.min_axis1_of3 v 0x7F800000#32 reduces_S8x32x512_S8x512 (.inl rfl) rfl r l

/-- The greatest over the houses, at (r, l). -/
theorem max_houses (v : FVec Ideal S8x32x512 .f32) (r : Fin 8) (l : Fin 512) :
    multiReduction .maximumf [1] S8x512 v 0xFF800000#32 reduces_S8x32x512_S8x512 (.inl rfl) rfl (ix2 r l)
      = (Finset.univ : Finset (Fin 32)).fold max Cert.Spec.negInf (fun h => v (ix3 r h l)) :=
  Cert.LibAxis.max_axis1_of3 v 0xFF800000#32 reduces_S8x32x512_S8x512 (.inl rfl) rfl r l

/-- The sum over the windows, at (r, h, l). -/
theorem sum_windows (x : FVec Ideal S8x32x8x512 .f32) (r : Fin 8) (h : Fin 32) (l : Fin 512) :
    multiReduction .add [2] S8x32x512 x 0x00000000#32 reduces_S8x32x8x512_S8x32x512 (.inl rfl) rfl (ix3 r h l)
      = ∑ w : Fin 8, x (ix4 r h w l) :=
  Cert.LibAxis.sum_axis2_of4 x 0x00000000#32 reduces_S8x32x8x512_S8x32x512 (.inl rfl) rfl r h l

/-- The sum over the eight towns of a tile, at column l. -/
theorem sum_towns (x : FVec Ideal S8x512 .f32) (l : Fin 512) :
    multiReduction .add [0] S512 x 0x00000000#32 reduces_S8x512_S512 (.inl rfl) rfl (ix1 l)
      = ∑ r : Fin 8, x (ix2 r l) :=
  Cert.LibAxis.sum_axis0_of2 x 0x00000000#32 reduces_S8x512_S512 (.inl rfl) rfl l

/-- A per-(town, column) factor given a unit house axis. -/
theorem keep_house (p : FVec Ideal S8x512 .f32) (r : Fin 8) (u : Fin 1) (l : Fin 512) :
    shapeCast S8x1x512 p shapeCasts_S8x512_S8x1x512 (ix3 r u l) = p (ix2 r l) :=
  Cert.LibAxis.shapeCast_ab_a1b_apply p shapeCasts_S8x512_S8x1x512 r u l

/-- … and broadcast along the 32 houses. -/
theorem along_houses (q : FVec Ideal S8x1x512 .f32) (r : Fin 8) (h : Fin 32) (l : Fin 512) :
    broadcastTo S8x32x512 q broadcasts_S8x1x512_S8x32x512 (ix3 r h l) = q (ix3 r (0 : Fin 1) l) :=
  Cert.LibAxis.broadcastTo_a1b_anb_apply q broadcasts_S8x1x512_S8x32x512 r h l

/-- A vector of 512 entries cast to one row. -/
theorem one_row (z : FVec Ideal S512 .f32) (u : Fin 1) (l : Fin 512) :
    shapeCast S1x512 z shapeCasts_S512_S1x512 (ix2 u l) = z (ix1 l) :=
  shapeCast_a_1a_apply z shapeCasts_S512_S1x512 u l

/-- Entry (r, l) of the tile is town `r`'s term at column `l`, of the blocks. -/
theorem tile_apply (x0 x1 : Vec Ideal S8x32x8x512 .f32) (x2 x3 : Vec Ideal S8x32x512 .f32) (x4 x5 : Vec Ideal S8x512 .f32)
    (r : Fin 8) (l : Fin 512) :
    k0_pay3 (F := Ideal) x0 x1 x5 x4 x2 x3 (ix2 r l) = Cert.Spec.town x0 x1 x2 x3 x4 x5 r l := by
  unfold k0_pay3
  dsimp only
  unfold Cert.Spec.town
  rw [addf_apply, min_houses, max_houses]
  refine congrArg₂ (fun a b : EReal => a + b) (Finset.fold_congr fun h _ => ?_) (Finset.fold_congr fun h _ => ?_)
  · rw [mulf_apply, along_houses, mulf_apply, keep_house, keep_house, addf_apply, sum_windows, shapeCast_self,
      subf_apply, broadcast_apply]
    rfl
  · rw [mulf_apply, along_houses, mulf_apply, keep_house, keep_house, addf_apply, sum_windows, subf_apply,
      shapeCast_self, broadcast_apply]
    rfl

/-- The running row after the body: entry (0, l) is the row's entry plus the sum over the eight towns of the
    block of their terms at column `l`. -/
theorem row_apply (x0 x1 : Vec Ideal S8x32x8x512 .f32) (x2 x3 : Vec Ideal S8x32x512 .f32) (x4 x5 : Vec Ideal S8x512 .f32)
    (acc : Vec Ideal S1x512 .f32) (u : Fin 1) (l : Fin 512) :
    k0_pay1 (F := Ideal) (k0_pay3 x0 x1 x5 x4 x2 x3) acc (ix2 u l)
      = acc (ix2 u l) + ∑ r : Fin 8, Cert.Spec.town x0 x1 x2 x3 x4 x5 r l := by
  unfold k0_pay1
  dsimp only
  rw [shapeCast_self, addf_apply, one_row, sum_towns]
  exact congrArg (fun a : EReal => acc (ix2 u l) + a) (Finset.sum_congr rfl fun r _ => tile_apply x0 x1 x2 x3 x4 x5 r l)

/-- The row the first town tile starts from is zero. -/
theorem zero_row_apply (j : S1x512.Idx) : k0_pay2 (F := Ideal) j = 0 := by
  unfold k0_pay2
  simp only [shapeCast_self, broadcast_apply]
  exact Ideal.ofBits_zero_f32

end Cert.KernelIdeal.Tile

end
-- ==== Proof.Blocks.lean ====
/-
  Where a block sits in its array.

  The grid has 4 × 8 points; point `n` handles batch tile `n / 8` and town tile `n % 8`. Every input window
  takes, on the town axis, the 8 towns `8·(n % 8) + r` and, on the batch axis, the 512 columns
  `512·(n / 8) + l`, whole on the other axes; the output window takes row 0 and the same 512 columns. So an
  entry of a block is the entry of the array (as the region finds it) at those shifted coordinates.
-/
import proofs.«146046_j16484084483043_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The town that row `r` of point `n`'s blocks holds. -/
def row (n : ℕ) (r : Fin 8) : Fin 64 := ⟨8 * (n % 8) + r.val, by omega⟩
/-- The batch column that lane `l` of point `n`'s blocks holds. -/
def col (n : ℕ) (hn : n < 32) (l : Fin 512) : Fin 2048 := ⟨512 * (n / 8) + l.val, by omega⟩

/-- The printed index maps, decided once over the 32 grid points. -/
theorem idx_facts : ∀ t : Fin cfg0.N,
    win0_0.index t (0 : Fin 4) = t.val % 8
    ∧ win0_0.index t (1 : Fin 4) = 0
    ∧ win0_0.index t (2 : Fin 4) = 0
    ∧ win0_0.index t (3 : Fin 4) = t.val / 8
    ∧ win0_1.index t (0 : Fin 4) = t.val % 8
    ∧ win0_1.index t (1 : Fin 4) = 0
    ∧ win0_1.index t (2 : Fin 4) = 0
    ∧ win0_1.index t (3 : Fin 4) = t.val / 8
    ∧ win0_2.index t (0 : Fin 3) = t.val % 8
    ∧ win0_2.index t (1 : Fin 3) = 0
    ∧ win0_2.index t (2 : Fin 3) = t.val / 8
    ∧ win0_3.index t (0 : Fin 3) = t.val % 8
    ∧ win0_3.index t (1 : Fin 3) = 0
    ∧ win0_3.index t (2 : Fin 3) = t.val / 8
    ∧ win0_4.index t (0 : Fin 2) = t.val % 8
    ∧ win0_4.index t (1 : Fin 2) = t.val / 8
    ∧ win0_5.index t (0 : Fin 2) = t.val % 8
    ∧ win0_5.index t (1 : Fin 2) = t.val / 8
    ∧ win0_6.index t (0 : Fin 2) = 0
    ∧ win0_6.index t (1 : Fin 2) = t.val / 8 :=
  (by decide +kernel : ∀ t : Fin grid0.N, _)

/-- An entry of window 0's block at point `t`. -/
theorem blk0 (c : Dev nD) (t : Fin cfg0.N) (hn : t.val < 32) (r : Fin 8) (h : Fin 32) (w : Fin 8) (l : Fin 512) :
    (iblk m c 0 t : Vec F S8x32x8x512 .f32) (ix4 r h w l) = V m c main_arg0 (ix4 (row t.val r) h w (col t.val hn l)) := by
  obtain ⟨e0, e1, e2, e3, -, -, -, -, -, -, -, -, -, -, -, -, -, -, -, -⟩ := idx_facts t
  unfold iblk
  rw [View.read_apply]
  show V m c main_arg0 _ = _
  refine congrArg (V m c main_arg0) (funext fun a => Fin.ext ?_)
  match a with
  | ⟨0, _⟩ => show win0_0.index t (0 : Fin 4) * 8 + 1 * r.val = 8 * (t.val % 8) + r.val; omega
  | ⟨1, _⟩ => show win0_0.index t (1 : Fin 4) * 32 + 1 * h.val = h.val; omega
  | ⟨2, _⟩ => show win0_0.index t (2 : Fin 4) * 8 + 1 * w.val = w.val; omega
  | ⟨3, _⟩ => show win0_0.index t (3 : Fin 4) * 512 + 1 * l.val = 512 * (t.val / 8) + l.val; omega

/-- An entry of window 1's block at point `t`. -/
theorem blk1 (c : Dev nD) (t : Fin cfg0.N) (hn : t.val < 32) (r : Fin 8) (h : Fin 32) (w : Fin 8) (l : Fin 512) :
    (iblk m c 1 t : Vec F S8x32x8x512 .f32) (ix4 r h w l) = V m c main_arg1 (ix4 (row t.val r) h w (col t.val hn l)) := by
  obtain ⟨-, -, -, -, e0, e1, e2, e3, -, -, -, -, -, -, -, -, -, -, -, -⟩ := idx_facts t
  unfold iblk
  rw [View.read_apply]
  show V m c main_arg1 _ = _
  refine congrArg (V m c main_arg1) (funext fun a => Fin.ext ?_)
  match a with
  | ⟨0, _⟩ => show win0_1.index t (0 : Fin 4) * 8 + 1 * r.val = 8 * (t.val % 8) + r.val; omega
  | ⟨1, _⟩ => show win0_1.index t (1 : Fin 4) * 32 + 1 * h.val = h.val; omega
  | ⟨2, _⟩ => show win0_1.index t (2 : Fin 4) * 8 + 1 * w.val = w.val; omega
  | ⟨3, _⟩ => show win0_1.index t (3 : Fin 4) * 512 + 1 * l.val = 512 * (t.val / 8) + l.val; omega

/-- An entry of window 2's block at point `t`. -/
theorem blk2 (c : Dev nD) (t : Fin cfg0.N) (hn : t.val < 32) (r : Fin 8) (h : Fin 32) (l : Fin 512) :
    (iblk m c 2 t : Vec F S8x32x512 .f32) (ix3 r h l) = V m c main_arg2 (ix3 (row t.val r) h (col t.val hn l)) := by
  obtain ⟨-, -, -, -, -, -, -, -, e0, e1, e2, -, -, -, -, -, -, -, -, -⟩ := idx_facts t
  unfold iblk
  rw [View.read_apply]
  show V m c main_arg2 _ = _
  refine congrArg (V m c main_arg2) (funext fun a => Fin.ext ?_)
  match a with
  | ⟨0, _⟩ => show win0_2.index t (0 : Fin 3) * 8 + 1 * r.val = 8 * (t.val % 8) + r.val; omega
  | ⟨1, _⟩ => show win0_2.index t (1 : Fin 3) * 32 + 1 * h.val = h.val; omega
  | ⟨2, _⟩ => show win0_2.index t (2 : Fin 3) * 512 + 1 * l.val = 512 * (t.val / 8) + l.val; omega

/-- An entry of window 3's block at point `t`. -/
theorem blk3 (c : Dev nD) (t : Fin cfg0.N) (hn : t.val < 32) (r : Fin 8) (h : Fin 32) (l : Fin 512) :
    (iblk m c 3 t : Vec F S8x32x512 .f32) (ix3 r h l) = V m c main_arg3 (ix3 (row t.val r) h (col t.val hn l)) := by
  obtain ⟨-, -, -, -, -, -, -, -, -, -, -, e0, e1, e2, -, -, -, -, -, -⟩ := idx_facts t
  unfold iblk
  rw [View.read_apply]
  show V m c main_arg3 _ = _
  refine congrArg (V m c main_arg3) (funext fun a => Fin.ext ?_)
  match a with
  | ⟨0, _⟩ => show win0_3.index t (0 : Fin 3) * 8 + 1 * r.val = 8 * (t.val % 8) + r.val; omega
  | ⟨1, _⟩ => show win0_3.index t (1 : Fin 3) * 32 + 1 * h.val = h.val; omega
  | ⟨2, _⟩ => show win0_3.index t (2 : Fin 3) * 512 + 1 * l.val = 512 * (t.val / 8) + l.val; omega

/-- An entry of window 4's block at point `t`. -/
theorem blk4 (c : Dev nD) (t : Fin cfg0.N) (hn : t.val < 32) (r : Fin 8) (l : Fin 512) :
    (iblk m c 4 t : Vec F S8x512 .f32) (ix2 r l) = V m c main_arg4 (ix2 (row t.val r) (col t.val hn l)) := by
  obtain ⟨-, -, -, -, -, -, -, -, -, -, -, -, -, -, e0, e1, -, -, -, -⟩ := idx_facts t
  unfold iblk
  rw [View.read_apply]
  show V m c main_arg4 _ = _
  refine congrArg (V m c main_arg4) (funext fun a => Fin.ext ?_)
  match a with
  | ⟨0, _⟩ => show win0_4.index t (0 : Fin 2) * 8 + 1 * r.val = 8 * (t.val % 8) + r.val; omega
  | ⟨1, _⟩ => show win0_4.index t (1 : Fin 2) * 512 + 1 * l.val = 512 * (t.val / 8) + l.val; omega

/-- An entry of window 5's block at point `t`. -/
theorem blk5 (c : Dev nD) (t : Fin cfg0.N) (hn : t.val < 32) (r : Fin 8) (l : Fin 512) :
    (iblk m c 5 t : Vec F S8x512 .f32) (ix2 r l) = V m c main_v1 (ix2 (row t.val r) (col t.val hn l)) := by
  obtain ⟨-, -, -, -, -, -, -, -, -, -, -, -, -, -, -, -, e0, e1, -, -⟩ := idx_facts t
  unfold iblk
  rw [View.read_apply]
  show V m c main_v1 _ = _
  refine congrArg (V m c main_v1) (funext fun a => Fin.ext ?_)
  match a with
  | ⟨0, _⟩ => show win0_5.index t (0 : Fin 2) * 8 + 1 * r.val = 8 * (t.val % 8) + r.val; omega
  | ⟨1, _⟩ => show win0_5.index t (1 : Fin 2) * 512 + 1 * l.val = 512 * (t.val / 8) + l.val; omega

end Cert.KernelIdeal.Blocks

end
-- ==== Proof.Accum.lean ====
/-
  The running row, point by point, and what the output block receives.

  Within one batch tile the eight grid points sweep the town tiles in order. The row starts at zero at the first
  and gains, at every point `n`, the sum over the 8 towns `8·(n % 8) + r` of their terms at the tile's columns.
  So after point `n` its entry at lane `l` is the sum of the terms of the towns `0 … 8·(n % 8) + 7` at column
  `512·(n / 8) + l` (by induction on the point); at the last point of the sweep that is the column's whole loss,
  and it is what the output block is given.
-/
import proofs.«146046_j16484084483043_2_alg».proof.Proof.Pieces
import proofs.«146046_j16484084483043_2_alg».proof.Proof.Tile
import proofs.«146046_j16484084483043_2_alg».proof.Proof.Blocks

noncomputable section

open scoped BigOperators
open Idealize.ShloMosaic Idealize.ShloMosaic.TcCoe Idealize.SL.Sem

namespace Cert.KernelIdeal.Accum

open Cert.KernelIdeal Cert.KernelIdeal.Gen Idealize.ShloMosaic.ValueIdx Cert.KernelIdeal.Blocks

variable (m : (ℓ : Loc nD τ sig) → Buf (Elt Ideal) ℓ)

/-- A town's term at a batch column, of the arrays as the region finds them (window 5's array is "belongs"). -/
def townA (c : Dev nD) (k : Fin 64) (b : Fin 2048) : EReal :=
  Cert.Spec.town (T := 64) (H := 32) (W := 8) (B := 2048) (V m c main_arg0) (V m c main_arg1) (V m c main_arg2)
    (V m c main_arg3) (V m c main_arg4) (V m c main_v1) k b

/-- The terms of the blocks at point `t` are the arrays' terms at the shifted town and column. -/
theorem town_blocks (c : Dev nD) (t : Fin cfg0.N) (hn : t.val < 32) (r : Fin 8) (l : Fin 512) :
    Cert.Spec.town (T := 8) (H := 32) (W := 8) (B := 512) (iblk m c 0 t : Vec Ideal S8x32x8x512 .f32)
        (iblk m c 1 t : Vec Ideal S8x32x8x512 .f32) (iblk m c 2 t : Vec Ideal S8x32x512 .f32)
        (iblk m c 3 t : Vec Ideal S8x32x512 .f32) (iblk m c 4 t : Vec Ideal S8x512 .f32)
        (iblk m c 5 t : Vec Ideal S8x512 .f32) r l
      = townA m c (row t.val r) (col t.val hn l) := by
  unfold townA Cert.Spec.town
  simp only [blk0 m c t hn, blk1 m c t hn, blk2 m c t hn, blk3 m c t hn, blk4 m c t hn, blk5 m c t hn]

/-- What point `t` adds to the running row at lane `l`. -/
def gain (c : Dev nD) (n : ℕ) (hn : n < 32) (l : Fin 512) : EReal :=
  ∑ r : Fin 8, townA m c (row n r) (col n hn l)

/-- The three cases' rows, over the generated case equations: the first point of a sweep, -/
theorem row_A (c : Dev nD) (t : Fin cfg0.N) (h0 : t.val % 8 = 0) (h1 : ¬t.val % 8 = 7) :
    (outsAt0 m c t.val t.isLt).2 = k0_pay1 (F := Ideal) (k0_pay3 (F := Ideal) (iblk m c 0 t) (iblk m c 1 t) (iblk m c 5 t) (iblk m c 4 t) (iblk m c 2 t) (iblk m c 3 t)) (k0_pay2 (F := Ideal)) := by
  have e := congrArg Prod.snd (outsAt0_A m c t h0 h1)
  dsimp only at e
  exact e.trans (Cert.KernelIdeal.Pieces.row_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t))

/-- a middle point, -/
theorem row_B (c : Dev nD) (t : Fin cfg0.N) (h0 : ¬t.val % 8 = 0) (h1 : ¬t.val % 8 = 7) :
    (outsAt0 m c t.val t.isLt).2 = k0_pay1 (F := Ideal) (k0_pay3 (F := Ideal) (iblk m c 0 t) (iblk m c 1 t) (iblk m c 5 t) (iblk m c 4 t) (iblk m c 2 t) (iblk m c 3 t)) (outsAt0 m c (t.val - 1) (Nat.lt_of_le_of_lt (Nat.sub_le _ _) t.isLt)).2 := by
  have e := congrArg Prod.snd (outsAt0_B m c t h0 h1)
  dsimp only at e
  exact e.trans (Cert.KernelIdeal.Pieces.row_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2)

/-- the last point: the row, -/
theorem row_C (c : Dev nD) (t : Fin cfg0.N) (h0 : ¬t.val % 8 = 0) (h1 : t.val % 8 = 7) :
    (outsAt0 m c t.val t.isLt).2 = k0_pay1 (F := Ideal) (k0_pay3 (F := Ideal) (iblk m c 0 t) (iblk m c 1 t) (iblk m c 5 t) (iblk m c 4 t) (iblk m c 2 t) (iblk m c 3 t)) (outsAt0 m c (t.val - 1) (Nat.lt_of_le_of_lt (Nat.sub_le _ _) t.isLt)).2 := by
  have e := congrArg Prod.snd (outsAt0_C m c t h0 h1)
  dsimp only at e
  exact e.trans (Cert.KernelIdeal.Pieces.row_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2)

/-- and the output block, which is given the same row. -/
theorem out_C (c : Dev nD) (t : Fin cfg0.N) (h0 : ¬t.val % 8 = 0) (h1 : t.val % 8 = 7) :
    (outsAt0 m c t.val t.isLt).1 = (outsAt0 m c t.val t.isLt).2 := by
  have e := congrArg Prod.fst (outsAt0_C m c t h0 h1)
  dsimp only at e
  exact (e.trans (Cert.KernelIdeal.Pieces.out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2)).trans
    (row_C m c t h0 h1).symm

/-- The body's row at lane `l`, from the row it found: that entry plus the point's gain. -/
theorem pay_apply (c : Dev nD) (t : Fin cfg0.N) (hn : t.val < 32) (acc : Vec Ideal S1x512 .f32) (u : Fin 1) (l : Fin 512) :
    k0_pay1 (F := Ideal) (k0_pay3 (F := Ideal) (iblk m c 0 t) (iblk m c 1 t) (iblk m c 5 t) (iblk m c 4 t) (iblk m c 2 t) (iblk m c 3 t)) acc (ix2 u l) = acc (ix2 u l) + gain m c t.val hn l := by
  refine (Cert.KernelIdeal.Tile.row_apply (iblk m c 0 t) (iblk m c 1 t) (iblk m c 2 t) (iblk m c 3 t) (iblk m c 4 t)
    (iblk m c 5 t) acc u l).trans ?_
  refine congrArg (fun a : EReal => acc (ix2 u l) + a) ?_
  exact Finset.sum_congr rfl fun r _ => town_blocks m c t hn r l

/-- The terms of the towns at one column, extended by zero past the 64th. -/
def ext (c : Dev nD) (b : Fin 2048) : ℕ → EReal := Cert.SumLaws.extRow fun k : Fin 64 => townA m c k b

/-- A point's gain is the sum of eight consecutive terms of the column. -/
theorem gain_eq (c : Dev nD) (n : ℕ) (hn : n < 32) (l : Fin 512) :
    gain m c n hn l = ∑ r : Fin 8, ext m c (col n hn l) (n % 8 * 8 + r.val) := by
  unfold gain ext
  refine Finset.sum_congr rfl fun r _ => ?_
  rw [Cert.SumLaws.extRow_of_lt _ _ (by have := r.isLt; omega)]
  exact congrArg (fun k => townA m c k (col n hn l)) (Fin.ext (by show 8 * (n % 8) + r.val = n % 8 * 8 + r.val; omega))

/-- At the first point of a sweep the row is that point's gain: the first group of eight terms. -/
theorem row_first_eq (c : Dev nD) (n : ℕ) (hN : n < cfg0.N) (hn : n < 32) (h0 : n % 8 = 0) (u : Fin 1) (l : Fin 512) :
    (outsAt0 m c n hN).2 (ix2 u l)
      = ∑ p ∈ Finset.range (n % 8 + 1), ∑ r : Fin 8, ext m c (col n hn l) (p * 8 + r.val) := by
  have h1 : ¬n % 8 = 7 := by omega
  have e := congrFun (row_A m c ⟨n, hN⟩ h0 h1) (ix2 u l)
  refine e.trans ?_
  rw [pay_apply m c ⟨n, hN⟩ hn, Cert.KernelIdeal.Tile.zero_row_apply, zero_add, gain_eq]
  show ∑ r : Fin 8, ext m c (col n hn l) (n % 8 * 8 + r.val) = _
  rw [h0, Nat.zero_add, Finset.sum_range_one]

/-- THE RUNNING ROW after point `n`: the first `n % 8 + 1` groups of eight terms of the column. -/
theorem row_eq (c : Dev nD) : ∀ (n : ℕ) (hN : n < cfg0.N) (hn : n < 32) (u : Fin 1) (l : Fin 512),
    (outsAt0 m c n hN).2 (ix2 u l)
      = ∑ p ∈ Finset.range (n % 8 + 1), ∑ r : Fin 8, ext m c (col n hn l) (p * 8 + r.val)
  | 0, hN, hn, u, l => row_first_eq m c 0 hN hn rfl u l
  | n + 1, hN, hn, u, l => by
    by_cases h0 : (n + 1) % 8 = 0
    · exact row_first_eq m c (n + 1) hN hn h0 u l
    · have hprev := row_eq c n (Nat.lt_of_succ_lt hN) (Nat.lt_of_succ_lt hn) u l
      have hcol : col n (Nat.lt_of_succ_lt hn) l = col (n + 1) hn l :=
        Fin.ext (by show 512 * (n / 8) + l.val = 512 * ((n + 1) / 8) + l.val; omega)
      have hmod : (n + 1) % 8 = n % 8 + 1 := by omega
      have hrow : (outsAt0 m c (n + 1) hN).2 (ix2 u l)
          = (outsAt0 m c n (Nat.lt_of_succ_lt hN)).2 (ix2 u l) + gain m c (n + 1) hn l := by
        by_cases h1 : (n + 1) % 8 = 7
        · exact (congrFun (row_C m c ⟨n + 1, hN⟩ h0 h1) (ix2 u l)).trans (pay_apply m c ⟨n + 1, hN⟩ hn _ u l)
        · exact (congrFun (row_B m c ⟨n + 1, hN⟩ h0 h1) (ix2 u l)).trans (pay_apply m c ⟨n + 1, hN⟩ hn _ u l)
      rw [hrow, hprev, hcol, gain_eq, hmod, Finset.sum_range_succ _ (n % 8 + 1)]

/-- After the last point of a sweep the row holds the column's loss. -/
theorem row_last_eq (c : Dev nD) (t : Fin cfg0.N) (hn : t.val < 32) (h7 : t.val % 8 = 7) (u : Fin 1) (l : Fin 512) :
    (outsAt0 m c t.val t.isLt).2 (ix2 u l) = ∑ k : Fin 64, townA m c k (col t.val hn l) := by
  rw [row_eq m c t.val t.isLt hn u l, h7]
  have h := Cert.Spec.sum_groups 8 8 (ext m c (col t.val hn l))
  rw [← h]
  exact Finset.sum_congr rfl fun k _ => Cert.SumLaws.extRow_of_lt _ _ k.isLt

end Cert.KernelIdeal.Accum

end
-- ==== Proof.Final.lean ====
/-
  The kernel's run, read: what its result holds.

  The output array has one row of 2048 columns; the window writes it back only at the last point of each
  batch tile's sweep, block `n / 8` of 512 columns, and these four blocks cover the row. What is written is the
  running row, which by then holds each column's loss (`Accum.row_last_eq`). So the array ends with the loss of
  column `b` at (0, b). The host lines after the call flatten the row, add its 2048 entries up from zero and divide
  by 2048: the result is that function of the row. The host lines before the call make "belongs" from the boolean
  argument (its transpose, converted), and no line writes the float arguments.
-/
import proofs.«146046_j16484084483043_2_alg».proof.Proof.Accum
import Idealize.ShloMosaic.Lib.StableHlo.Run

noncomputable section

open scoped BigOperators
open Idealize.ShloMosaic Idealize.ShloMosaic.TcCoe Idealize.SL.Sem
open Idealize.ShloMosaic.Pipeline (Dat)

namespace Cert.KernelIdeal.Final

open Cert.KernelIdeal Cert.KernelIdeal.Gen Idealize.ShloMosaic.ValueIdx Cert.KernelIdeal.Blocks Cert.KernelIdeal.Accum

variable (m : (ℓ : Loc nD τ sig) → Buf (Elt Ideal) ℓ) (ρ : Dev nD → PrngReg)

/-- The row of losses, as contents of the output array: entry (0, b) is column `b`'s loss. -/
def lossRow (c : Dev nD) : Buf (Elt Ideal) ((c : Thread nD τ).loc main_v2) :=
  fun j : S1x2048.Idx => (∑ k : Fin 64, townA m c k ⟨(j 1).val, (j 1).isLt⟩ : EReal)

/-- What a flushing point writes back is its block of the row of losses. -/
theorem flushed_eq (c : Dev nD) (t : Fin cfg0.N) (hf : (cfg0.win 6).flush t = true) :
    (dats m 0 c).flushed 6 t = ((cfg0.win 6).blk t).view.read (Elt Ideal) (lossRow m c) := by
  have h7 : t.val % 8 = 7 := (flush0_6 t).mp hf
  have hn : t.val < 32 := lt_of_lt_of_eq t.isLt (show cfg0.N = 32 from N_0)
  have e1 : win0_6.index t (1 : Fin 2) = t.val / 8 := (idx_facts t).2.2.2.2.2.2.2.2.2.2.2.2.2.2.2.2.2.2.2
  show (cfg0.win 6).cut (grid0.coords t) ((dats m 0 c).after 6 t) = _
  rw [after0_6, out_C m c t (by omega) h7]
  funext y
  obtain ⟨u, l, rfl⟩ : ∃ (u : Fin 1) (l : Fin 512), y = ix2 u l := ⟨y 0, y 1, eq_ix2 y⟩
  rw [View.read_apply]
  show (outsAt0 m c t.val t.isLt).2 (ix2 u l) = lossRow m c (((cfg0.win 6).blk t).view.emb (ix2 u l))
  rw [row_last_eq m c t hn h7 u l]
  unfold lossRow
  refine Finset.sum_congr rfl fun k _ => congrArg (townA m c k) (Fin.ext ?_)
  show 512 * (t.val / 8) + l.val = win0_6.index t (1 : Fin 2) * 512 + 1 * l.val
  rw [e1]; omega

/-- An index of the output array is in point `t`'s block iff each coordinate is in the block's range. -/
theorem mem_blk (t : Fin cfg0.N) (i : S1x2048.Idx) :
    i ∈ ((cfg0.win 6).blk t).view.set ↔ ∀ a : Fin 2, win0_6.index t a * S1x512.size a ≤ (i a).val
      ∧ (i a).val < win0_6.index t a * S1x512.size a + S1x512.size a := by
  show i ∈ ((View.whole main_v2).slice (win0_6.rect t)).set ↔ _
  rw [View.set_slice_whole, Rect.mem_set_unit]
  exact Iff.rfl

/-- The output array after the run is the row of losses. -/
theorem final (c : Dev nD) : (dats m 0 c).arrAt 6 cfg0.N = lossRow m c :=
  (dats m 0 c).arrAt_eq_of_cover 6 (lossRow m c) (flushed_eq m c) fun i => by
    have hi0 : (i 0).val < 1 := (i 0).isLt
    have hi1 : (i 1).val < 2048 := (i 1).isLt
    have hN : cfg0.N = 32 := N_0
    let t : Fin cfg0.N := ⟨8 * ((i 1).val / 512) + 7, by rw [hN]; omega⟩
    have ht : t.val = 8 * ((i 1).val / 512) + 7 := rfl
    have hidx := idx_facts t
    have e0 : win0_6.index t (0 : Fin 2) = 0 := hidx.2.2.2.2.2.2.2.2.2.2.2.2.2.2.2.2.2.2.1
    have e1 : win0_6.index t (1 : Fin 2) = t.val / 8 := hidx.2.2.2.2.2.2.2.2.2.2.2.2.2.2.2.2.2.2.2
    refine ⟨t, (flush0_6 t).mpr (by rw [ht]; omega), ?_⟩
    rw [mem_blk]
    intro a
    match a with
    | ⟨0, _⟩ =>
      show win0_6.index t (0 : Fin 2) * 1 ≤ (i 0).val ∧ (i 0).val < win0_6.index t (0 : Fin 2) * 1 + 1
      rw [e0]; omega
    | ⟨1, _⟩ =>
      show win0_6.index t (1 : Fin 2) * 512 ≤ (i 1).val ∧ (i 1).val < win0_6.index t (1 : Fin 2) * 512 + 512
      rw [e1, ht]; omega

/-- "Belongs", as the region finds it: the boolean argument transposed and converted. -/
theorem V_belongs (c : Dev nD) :
    (V m c main_v1 : S64x2048.Idx → EReal)
      = uitofp (F := Ideal) .f32 (transpose S64x2048 [1, 0] (m ((c : Thread nD τ).loc main_arg5)) transposes_S2048x64_S64x2048_1_0) := by
  show StableHlo.after hostOps0 (fun b => m (c, b)) (Proc.devRef .tc main_v1) = _
  after_results

/-- The host lines after the call, as one function of the output array: flatten, add up from zero, divide by 2048. -/
def tail (row : S1x2048.Idx → EReal) : S_.Idx → EReal :=
  Host.divf (F := Ideal) (Host.reduceAdd (F := Ideal) (shapeCast S2048 row shapeCasts_S1x2048_S2048)
    (constant (F := Ideal) S_ .f32 0x00000000#32) reducesTo_S2048_S_d0 h_S_) (constant (F := Ideal) S_ .f32 0x45000000#32)

/-- The program's result after the run. -/
theorem result_eq (c : Dev nD) :
    Pipeline.afterTail₀ cfgs (dats m) 0 (V0 m) [hostOps1] c main_v5 = tail (lossRow m c) := by
  unfold Pipeline.afterTail₀
  show StableHlo.after hostOps1 _ (Proc.devRef .tc main_v5) = _
  after_results
  unfold tail
  have hw : Pipeline.withArrays (cfgs 0).spec c (V0 m c) (fun w => (dats m 0 c).arrAt w (cfgs 0).N) (Proc.devRef .tc main_v2)
      = lossRow m c := (Pipeline.withArrays_arr spec0 launch0.win.arr_inj c _ _ 6).trans (final m c)
  rw [hw]
  rfl

/-- The run: the result at `tail` of the row of losses, the arguments unchanged. -/
theorem run : θ_run defs (onTc (τ := τ) (main (F := Ideal))) ⟨m, fun _ => 0, ρ⟩ fun r => ∀ c : Dev nD,
      r.2.mem ((c.tc : Thread nD τ).loc main_v5) = tail (lossRow m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v5 (Pipeline.mem_restRefs_of main_v5 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩)
    (run_main m ρ)

end Cert.KernelIdeal.Final

end
-- ==== Proof.LibMinFold.lean ====
/-
  Minimum reductions as folds, and a fold of `min` over a range taken block by block.

  * At the ideal values a `vector.multi_reduction <minimumf>` over ONE axis is, at each reduced index, the fold of
    `min` from the accumulator's value over that axis's coordinates; the host's one-operand `stablehlo.reduce` with a
    `minimum` body likewise, from the initial value.
  * In any linear order, the fold of `min` from `I` over the `(A + 1) * B` values `g 0, g 1, …` is the running minimum
    over the `A + 1` consecutive blocks of `B` values of the blocks' own folds from `I` (`runMin`): a minimum may be
    taken tile by tile.
-/
import Idealize.ShloMosaic.PureOps.Ideal.Laws

namespace Cert.LibMinFold

open Idealize.ShloMosaic

/-- A float `vector.multi_reduction <minimumf>` over one axis, read at `Ideal`: the fold of `min` from the
    accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The host's one-operand `stablehlo.reduce` with a `minimum` body over one axis, read at `Ideal`: the fold of
    `min` from the initial value over that axis's coordinates. -/
theorem hostReduce_minimumf_single {φ : FTy} {s t u : Shape} {a : Fin s.rank} (x : FVec Ideal s φ) (init : FVec Ideal u φ)
    (h' : s.ReducesTo [a] t) (h : s.Reduces [a] t) (hu : 0 < u.numel) (j : t.Idx) :
    Host.reduce (FloatOps.minimumf (F := Ideal) (φ := φ)) x init h' hu j
      = (Finset.univ : Finset (Fin (s.size a))).fold min (init (Shape.Idx.first hu)) (x ∘ h.lift j) :=
  Host.reduce_eq_fold_single _ x init h' h hu j

variable {α : Type*} [LinearOrder α]

/-- The running minimum of `T 0, …, T i`, taken left to right. -/
def runMin (T : ℕ → α) : ℕ → α
  | 0 => T 0
  | i + 1 => min (runMin T i) (T (i + 1))

theorem le_runMin (T : ℕ → α) (c : α) : ∀ i, c ≤ runMin T i ↔ ∀ i' ≤ i, c ≤ T i'
  | 0 => ⟨fun h i' hi => by obtain rfl : i' = 0 := Nat.le_zero.mp hi; exact h, fun h => h 0 le_rfl⟩
  | i + 1 => by
    show c ≤ min (runMin T i) (T (i + 1)) ↔ _
    rw [le_min_iff, le_runMin T c i]
    constructor
    · rintro ⟨h1, h2⟩ i' hi
      rcases Nat.lt_or_ge i' (i + 1) with h | h
      · exact h1 i' (Nat.lt_succ_iff.mp h)
      · obtain rfl : i' = i + 1 := le_antisymm hi h
        exact h2
    · exact fun h => ⟨fun i' hi => h i' (Nat.le_succ_of_le hi), h (i + 1) le_rfl⟩

/-- A fold of `min` over `N = (A + 1) * B` values is the running minimum over the `A + 1` blocks of `B` consecutive
    values of each block's own fold. -/
theorem fold_min_blocks (A B N : ℕ) (hN : N = (A + 1) * B) (hB : 0 < B) (I : α) (g : ℕ → α) :
    (Finset.univ : Finset (Fin N)).fold min I (fun n => g n.val)
      = runMin (fun i => (Finset.univ : Finset (Fin B)).fold min I (fun r => g (B * i + r.val))) A := by
  refine eq_of_forall_le_iff fun c => ?_
  rw [Finset.le_fold_min, le_runMin]
  constructor
  · rintro ⟨hI, hg⟩ i hi
    rw [Finset.le_fold_min]
    refine ⟨hI, fun r _ => ?_⟩
    have hlt : B * i + r.val < N := by
      have h1 : B * i + r.val < B * (i + 1) := by rw [Nat.mul_succ]; exact Nat.add_lt_add_left r.isLt _
      have h2 : B * (i + 1) ≤ B * (A + 1) := Nat.mul_le_mul_left _ (Nat.succ_le_succ hi)
      rw [hN, Nat.mul_comm (A + 1) B]; exact lt_of_lt_of_le h1 h2
    exact hg ⟨B * i + r.val, hlt⟩ (Finset.mem_univ _)
  · intro h
    have h0 := h 0 (Nat.zero_le _)
    rw [Finset.le_fold_min] at h0
    refine ⟨h0.1, fun n _ => ?_⟩
    have hi : n.val / B ≤ A := by
      have : n.val / B < A + 1 := by
        rw [Nat.div_lt_iff_lt_mul hB]; exact lt_of_lt_of_eq n.isLt hN
      exact Nat.lt_succ_iff.mp this
    have hh := h (n.val / B) hi
    rw [Finset.le_fold_min] at hh
    have := hh.2 ⟨n.val % B, Nat.mod_lt _ hB⟩ (Finset.mem_univ _)
    rwa [Nat.div_add_mod] at this

end Cert.LibMinFold
-- ==== Proof.RefLoss.lean ====
/-
  The reference program's loss of one batch column is the specification's.

  The reference computes, for towns t < 64, houses h < 32, windows w < 8 and batch columns b < 2048,

    A(t,h,b) = bel(t,b) · (1 − cont(t,b)) · (ofd(t,h,b) + (0 + Σ_w iw(t,h,w,b))),
    C(t,h,b) = (1 − bel(t,b)) · cont(t,b) · (ifd(t,h,b) + (0 + Σ_w ow(t,h,w,b))),

  then the minimum of A over the houses from +∞, the maximum of C over the houses from −∞, their sum, and
  last 0 + Σ_t of that sum. Here bel is the 0/1 membership table, transposed and converted to a float, and
  is kept as it stands: nothing below looks inside it.

  Read at the ideal values (floats are extended reals) each elementwise stage is the extended reals' own
  operation at the same coordinates, a broadcast reads its operand at the coordinates it keeps, and the
  word of 0.0 is 0, which adds nothing. So the product A(t,h,b) is, factor for factor and in the same
  order, the first summand of the specification's town term, and C(t,h,b) the second
  (`v13_at`, `v19_at`). A reduction over the house axis is, at (t, b), the fold of min (or max) from its
  initial value over the houses h of the operand at (t, h, b) (`v20_at`, `v21_at`), and the final sum over
  the town axis is the specification's sum over the towns (`val_v23_eq_loss`). No law of arithmetic is
  used beyond 0 + x = x: the specification multiplies in the reference's order.
-/
import proofs.«146046_j16484084483043_2_alg».proof.Proof.Gen.ReferenceIdeal.Read
import proofs.«146046_j16484084483043_2_alg».proof.Proof.Spec
import proofs.«146046_j16484084483043_2_alg».proof.Proof.LibMinFold
import Idealize.ShloMosaic.Lib.ValueIdx
import Idealize.ShloMosaic.PureOps.Ideal.Laws
import Idealize.ShloMosaic.Lib.Pipeline.Value

noncomputable section

open scoped BigOperators

namespace Cert.RefLoss

open Cert.ReferenceIdeal Cert.ReferenceIdeal.Gen Cert.ReferenceIdeal.Read Idealize.ShloMosaic Idealize.ShloMosaic.ValueIdx

/-- The index (t, b) of the reduced array with house `k` put back on the house axis is (t, k, b). -/
theorem lift_ix3 (h : S64x32x2048.Reduces [1] S64x2048) (t : Fin 64) (b : Fin 2048) (k : Fin (S64x32x2048.size 1)) :
    h.lift (ix2 t b) k = ix3 t (⟨k.val, k.isLt⟩ : Fin 32) b := by
  funext c; apply Fin.ext
  match c with | ⟨0, _⟩ => rfl | ⟨1, _⟩ => rfl | ⟨2, _⟩ => rfl

/-- The "belongs" cost of house `h` of town `t` at column `b`, as the reference forms it:
    bel(t,b) · (1 − cont(t,b)) · (ofd(t,h,b) + Σ_w iw(t,h,w,b)). -/
theorem v13_at (x0 : (⟨S64x32x8x2048, .f32⟩ : BufTy).Contents (Elt Ideal)) (x2 : (⟨S64x32x2048, .f32⟩ : BufTy).Contents (Elt Ideal))
    (x4 : (⟨S64x2048, .f32⟩ : BufTy).Contents (Elt Ideal)) (x5 : (⟨S2048x64, .i1⟩ : BufTy).Contents (Elt Ideal))
    (t : Fin 64) (h : Fin 32) (b : Fin 2048) :
    val_main_v13 (F := Ideal) x0 x2 x4 x5 (ix3 t h b)
      = val_main_v1 (F := Ideal) x5 (ix2 t b) * (Cert.Spec.one - x4 (ix2 t b))
          * (x2 (ix3 t h b) + ∑ w : Fin 8, x0 (ix4 t h w b)) := by
  rw [val_main_v13_apply, val_main_v12_apply, val_main_v10_apply, val_main_v6_apply, val_main_v9_apply,
    val_main_v8_apply, val_main_v7_apply, val_main_cst_2_apply, val_main_v11_apply, val_main_v4_apply,
    val_main_cst_0_apply]
  simp only [Ideal.mulf_def, Ideal.addf_def, Ideal.subf_def, Ideal.ofBits_def, Ideal.ofBits_zero_f32, zero_add]
  have e1 : idx_main_v6 (idx_main_v12 (ix3 t h b)) = ix2 t b :=
    funext fun a => by match a with | ⟨0, _⟩ => rfl | ⟨1, _⟩ => rfl
  have e2 : idx_main_v9 (idx_main_v12 (ix3 t h b)) = ix2 t b :=
    funext fun a => by match a with | ⟨0, _⟩ => rfl | ⟨1, _⟩ => rfl
  have e3 : ∀ k : Fin 8, idx_main_v4 (ix3 t h b) k = ix4 t h k b := fun k =>
    funext fun a => by match a with | ⟨0, _⟩ => rfl | ⟨1, _⟩ => rfl | ⟨2, _⟩ => rfl | ⟨3, _⟩ => rfl
  rw [e1, e2]
  simp only [e3]

/-- The "does not belong" cost of house `h` of town `t` at column `b`, as the reference forms it:
    (1 − bel(t,b)) · cont(t,b) · (ifd(t,h,b) + Σ_w ow(t,h,w,b)). -/
theorem v19_at (x1 : (⟨S64x32x8x2048, .f32⟩ : BufTy).Contents (Elt Ideal)) (x3 : (⟨S64x32x2048, .f32⟩ : BufTy).Contents (Elt Ideal))
    (x4 : (⟨S64x2048, .f32⟩ : BufTy).Contents (Elt Ideal)) (x5 : (⟨S2048x64, .i1⟩ : BufTy).Contents (Elt Ideal))
    (t : Fin 64) (h : Fin 32) (b : Fin 2048) :
    val_main_v19 (F := Ideal) x1 x3 x4 x5 (ix3 t h b)
      = (Cert.Spec.one - val_main_v1 (F := Ideal) x5 (ix2 t b)) * x4 (ix2 t b)
          * (x3 (ix3 t h b) + ∑ w : Fin 8, x1 (ix4 t h w b)) := by
  rw [val_main_v19_apply, val_main_v18_apply, val_main_v16_apply, val_main_v14_apply, val_main_v3_apply,
    val_main_v2_apply, val_main_cst_apply, val_main_v15_apply, val_main_v17_apply, val_main_v5_apply,
    val_main_cst_1_apply]
  simp only [Ideal.mulf_def, Ideal.addf_def, Ideal.subf_def, Ideal.ofBits_def, Ideal.ofBits_zero_f32, zero_add]
  have e1 : idx_main_v14 (idx_main_v18 (ix3 t h b)) = ix2 t b :=
    funext fun a => by match a with | ⟨0, _⟩ => rfl | ⟨1, _⟩ => rfl
  have e2 : idx_main_v15 (idx_main_v18 (ix3 t h b)) = ix2 t b :=
    funext fun a => by match a with | ⟨0, _⟩ => rfl | ⟨1, _⟩ => rfl
  have e3 : ∀ k : Fin 8, idx_main_v5 (ix3 t h b) k = ix4 t h k b := fun k =>
    funext fun a => by match a with | ⟨0, _⟩ => rfl | ⟨1, _⟩ => rfl | ⟨2, _⟩ => rfl | ⟨3, _⟩ => rfl
  rw [e1, e2]
  simp only [e3]

/-- The reference's minimum over the houses at (t, b): the fold of `min` from +∞ over the houses of the
    "belongs" costs. -/
theorem v20_at (x0 : (⟨S64x32x8x2048, .f32⟩ : BufTy).Contents (Elt Ideal)) (x2 : (⟨S64x32x2048, .f32⟩ : BufTy).Contents (Elt Ideal))
    (x4 : (⟨S64x2048, .f32⟩ : BufTy).Contents (Elt Ideal)) (x5 : (⟨S2048x64, .i1⟩ : BufTy).Contents (Elt Ideal))
    (t : Fin 64) (b : Fin 2048) :
    val_main_v20 (F := Ideal) x0 x2 x4 x5 (ix2 t b)
      = (Finset.univ : Finset (Fin 32)).fold min Cert.Spec.posInf
          (fun h => val_main_v1 (F := Ideal) x5 (ix2 t b) * (Cert.Spec.one - x4 (ix2 t b))
            * (x2 (ix3 t h b) + ∑ w : Fin 8, x0 (ix4 t h w b))) := by
  have hR : S64x32x2048.Reduces [1] S64x2048 := by decide
  unfold val_main_v20
  refine (Cert.LibMinFold.hostReduce_minimumf_single (val_main_v13 (F := Ideal) x0 x2 x4 x5) (val_main_cst_3 (F := Ideal))
    reducesTo_S64x32x2048_S64x2048_d1 hR h_S_ (ix2 t b)).trans ?_
  have hf : (val_main_v13 (F := Ideal) x0 x2 x4 x5 ∘ hR.lift (ix2 t b))
      = fun h : Fin 32 => val_main_v1 (F := Ideal) x5 (ix2 t b) * (Cert.Spec.one - x4 (ix2 t b))
            * (x2 (ix3 t h b) + ∑ w : Fin 8, x0 (ix4 t h w b)) :=
    funext fun k => (congrArg (val_main_v13 (F := Ideal) x0 x2 x4 x5) (lift_ix3 hR t b k)).trans (v13_at x0 x2 x4 x5 t _ b)
  exact congrArg (fun f => Finset.fold min Cert.Spec.posInf f (Finset.univ : Finset (Fin 32))) hf

/-- The reference's maximum over the houses at (t, b): the fold of `max` from −∞ over the houses of the
    "does not belong" costs. -/
theorem v21_at (x1 : (⟨S64x32x8x2048, .f32⟩ : BufTy).Contents (Elt Ideal)) (x3 : (⟨S64x32x2048, .f32⟩ : BufTy).Contents (Elt Ideal))
    (x4 : (⟨S64x2048, .f32⟩ : BufTy).Contents (Elt Ideal)) (x5 : (⟨S2048x64, .i1⟩ : BufTy).Contents (Elt Ideal))
    (t : Fin 64) (b : Fin 2048) :
    val_main_v21 (F := Ideal) x1 x3 x4 x5 (ix2 t b)
      = (Finset.univ : Finset (Fin 32)).fold max Cert.Spec.negInf
          (fun h => (Cert.Spec.one - val_main_v1 (F := Ideal) x5 (ix2 t b)) * x4 (ix2 t b)
            * (x3 (ix3 t h b) + ∑ w : Fin 8, x1 (ix4 t h w b))) := by
  have hR : S64x32x2048.Reduces [1] S64x2048 := by decide
  unfold val_main_v21
  refine (Host.reduce_eq_fold_single (FloatOps.maximumf (F := Ideal) (φ := .f32)) (val_main_v19 (F := Ideal) x1 x3 x4 x5) (val_main_cst_4 (F := Ideal))
    reducesTo_S64x32x2048_S64x2048_d1 hR h_S_ (ix2 t b)).trans ?_
  have hf : (val_main_v19 (F := Ideal) x1 x3 x4 x5 ∘ hR.lift (ix2 t b))
      = fun h : Fin 32 => (Cert.Spec.one - val_main_v1 (F := Ideal) x5 (ix2 t b)) * x4 (ix2 t b)
            * (x3 (ix3 t h b) + ∑ w : Fin 8, x1 (ix4 t h w b)) :=
    funext fun k => (congrArg (val_main_v19 (F := Ideal) x1 x3 x4 x5) (lift_ix3 hR t b k)).trans (v19_at x1 x3 x4 x5 t _ b)
  exact congrArg (fun f => Finset.fold max Cert.Spec.negInf f (Finset.univ : Finset (Fin 32))) hf

/-- The reference's per-column value — the sum over the towns of the least "belongs" cost plus the greatest
    "does not belong" cost — is the specification's loss of that column, with the membership table read
    through the reference's own transposition and conversion. -/
theorem val_v23_eq_loss (x0 x1 : (⟨S64x32x8x2048, .f32⟩ : BufTy).Contents (Elt Ideal)) (x2 x3 : (⟨S64x32x2048, .f32⟩ : BufTy).Contents (Elt Ideal))
    (x4 : (⟨S64x2048, .f32⟩ : BufTy).Contents (Elt Ideal)) (x5 : (⟨S2048x64, .i1⟩ : BufTy).Contents (Elt Ideal)) (b : Fin 2048) :
    Cert.ReferenceIdeal.Read.val_main_v23 (F := Ideal) x0 x1 x2 x3 x4 x5 (ix1 b)
      = Cert.Spec.loss x0 x1 x2 x3 x4 (Cert.ReferenceIdeal.Read.val_main_v1 (F := Ideal) x5) b := by
  rw [val_main_v23_apply, val_main_cst_5_apply]
  simp only [Ideal.ofBits_def, Ideal.ofBits_zero_f32, zero_add]
  unfold Cert.Spec.loss
  refine Finset.sum_congr rfl fun t _ => ?_
  have e : idx_main_v23 (ix1 b) t = ix2 t b :=
    funext fun a => by match a with | ⟨0, _⟩ => rfl | ⟨1, _⟩ => rfl
  rw [e, val_main_v22_apply, Ideal.addf_def, v20_at, v21_at]
  rfl

end Cert.RefLoss

end
-- ==== Proof.Bridge.lean ====
/-
  The two results are one number.

  The kernel's result is `tail` of its row of losses: the row flattened, its 2048 entries added up from zero, the sum
  divided by 2048. The reference's last three lines are the same three operations applied to its vector of losses.
  Entry `b` of either is `Σ_t town t b` of the same six arrays — the kernel's accumulated tile by tile
  (`Final.final`), the reference's summed at once (`RefLoss.val_v23_eq_loss`); "belongs" is on both sides the
  boolean argument transposed and converted. So the inputs of the shared tail agree entry by entry.
-/
import proofs.«146046_j16484084483043_2_alg».proof.Proof.Final
import proofs.«146046_j16484084483043_2_alg».proof.Proof.RefLoss
import Idealize.ShloMosaic.Lib.ValueLayout

noncomputable section

open scoped BigOperators
open Idealize.ShloMosaic Idealize.ShloMosaic.TcCoe Idealize.SL.Sem

namespace Cert.Bridge

open Idealize.ShloMosaic.ValueIdx

variable (m : (ℓ : Loc Cert.KernelIdeal.nD Cert.KernelIdeal.τ Cert.KernelIdeal.sig) → Buf (Elt Ideal) ℓ)

/-- Entry `b` of the kernel's flattened row is the reference's loss of column `b`, of the launch arrays. -/
theorem losses_eq (c : Dev Cert.KernelIdeal.nD) (b : Fin 2048) :
    Cert.ReferenceIdeal.Read.val_main_v23 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)) (ix1 b)
      = shapeCast Cert.KernelIdeal.S2048 (Cert.KernelIdeal.Final.lossRow m c) Cert.KernelIdeal.Gen.shapeCasts_S1x2048_S2048 (ix1 b) := by
  rw [Cert.RefLoss.val_v23_eq_loss]
  refine Eq.symm ((shapeCast_1a_a_apply _ Cert.KernelIdeal.Gen.shapeCasts_S1x2048_S2048 b).trans ?_)
  unfold Cert.KernelIdeal.Final.lossRow Cert.Spec.loss
  refine Finset.sum_congr rfl fun k _ => ?_
  unfold Cert.KernelIdeal.Accum.townA
  rw [Cert.KernelIdeal.Gen.V_main_arg0, Cert.KernelIdeal.Gen.V_main_arg1, Cert.KernelIdeal.Gen.V_main_arg2,
    Cert.KernelIdeal.Gen.V_main_arg3, Cert.KernelIdeal.Gen.V_main_arg4, Cert.KernelIdeal.Final.V_belongs]
  rfl

/-- The reference's result term, of the kernel's launch arrays, is the kernel's result. -/
theorem result_eq (c : Dev Cert.KernelIdeal.nD) :
    Cert.ReferenceIdeal.Read.val_main_v25 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = Cert.KernelIdeal.Final.tail (Cert.KernelIdeal.Final.lossRow m c) := by
  have hX : Cert.ReferenceIdeal.Read.val_main_v23 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = shapeCast Cert.KernelIdeal.S2048 (Cert.KernelIdeal.Final.lossRow m c) Cert.KernelIdeal.Gen.shapeCasts_S1x2048_S2048 :=
    funext fun i => by
      obtain ⟨b, rfl⟩ : ∃ b : Fin 2048, i = ix1 b := ⟨i 0, eq_ix1 i⟩
      exact losses_eq m c b
  unfold Cert.ReferenceIdeal.Read.val_main_v25 Cert.ReferenceIdeal.Read.val_main_v24 Cert.KernelIdeal.Final.tail
  rw [hX]
  rfl

end Cert.Bridge

end
-- ==== Proof.lean ====
/-
  The certificate of one loss kernel against its jnp reference.

  Both programs take six arrays — two of window distances [64, 32, 8, 2048], two of frame distances
  [64, 32, 2048], a containment mask [64, 2048] and a boolean target [2048, 64] — and return one number: for every
  batch column, the sum over the 64 towns of (the least over the 32 houses of a "belongs" cost plus the greatest
  over the houses of a "does not belong" cost), averaged over the 2048 columns. The kernel sweeps the towns eight
  at a time, keeping a running row per batch tile of 512 columns; the reference reduces whole arrays. Over the
  extended reals addition is commutative and associative, so the running sum taken tile by tile is the whole sum,
  and every other operation is the same on both sides, entry by entry: no finiteness of the inputs is used.
  The frames of the two kernel programs are the generated ones; the reference's frame is its generated run; the
  idealization rewrote nothing.
-/
import proofs.«146046_j16484084483043_2_alg».proof.Defs
import proofs.«146046_j16484084483043_2_alg».proof.Proof.Gen.Kernel
import proofs.«146046_j16484084483043_2_alg».proof.Proof.Gen.Kernel.Skeleton
import proofs.«146046_j16484084483043_2_alg».proof.Proof.Gen.Kernel.Launch
import proofs.«146046_j16484084483043_2_alg».proof.Proof.Gen.Kernel.Points
import proofs.«146046_j16484084483043_2_alg».proof.Proof.Gen.Kernel.Frame
import proofs.«146046_j16484084483043_2_alg».proof.Proof.Gen.KernelIdeal
import proofs.«146046_j16484084483043_2_alg».proof.Proof.Gen.KernelIdeal.Skeleton
import proofs.«146046_j16484084483043_2_alg».proof.Proof.Gen.KernelIdeal.Launch
import proofs.«146046_j16484084483043_2_alg».proof.Proof.Gen.KernelIdeal.Points
import proofs.«146046_j16484084483043_2_alg».proof.Proof.Gen.KernelIdeal.Frame
import proofs.«146046_j16484084483043_2_alg».proof.Proof.Gen.ReferenceIdeal
import proofs.«146046_j16484084483043_2_alg».proof.Proof.Gen.Pre_finite_inputs
import proofs.«146046_j16484084483043_2_alg».proof.Proof.Gen.ReferenceIdeal.Run
import proofs.«146046_j16484084483043_2_alg».proof.Proof.Gen.ReferenceIdeal.Read
import proofs.«146046_j16484084483043_2_alg».proof.Proof.Bridge
import Idealize.ShloMosaic.Adequacy
import Idealize.ShloMosaic.Init

noncomputable section

namespace Cert.Proof

open Idealize.ShloMosaic Idealize.SL.Sem Cert.Kernel

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference's frame is its run with the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the arguments, both programs end at the same number. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Final.tail (Cert.KernelIdeal.Final.lossRow m c), Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, (hagree c).1, (hagree c).2.1, (hagree c).2.2.1, (hagree c).2.2.2.1,
    (hagree c).2.2.2.2.1, (hagree c).2.2.2.2.2]
  exact Cert.Bridge.result_eq m c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
